-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4096x128 .f32) (main_arg1 : FVec F S128x64 .f32) (main_arg2 : IVec S2x131072 32) (main_arg3 : FVec F S131072 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  main_v13
-- ==== Kernel.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S4096x64 : Shape := ⟨2, ![4096, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩
abbrev S1024x4096 : Shape := ⟨2, ![1024, 4096]⟩
abbrev S1024x64 : Shape := ⟨2, ![1024, 64]⟩

abbrev nBuf : Space → Nat
  | .hbm => 32
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S128x64, .f32⟩
  | .hbm, ⟨2, _⟩ => ⟨S2x131072, .i32⟩
  | .hbm, ⟨3, _⟩ => ⟨S131072, .f32⟩
  | .hbm, ⟨4, _⟩ => ⟨S4096x64, .f32⟩
  | .hbm, ⟨5, _⟩ => ⟨S_, .f32⟩
  | .hbm, ⟨6, _⟩ => ⟨S4096x4096, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S4096x4096, .f32⟩
  | .hbm, ⟨29, _⟩ => ⟨S4096x64, .f32⟩
  | .hbm, ⟨30, _⟩ => ⟨S4096x64, .f32⟩
  | .hbm, ⟨31, _⟩ => ⟨S4096x64, .f32⟩
  | .local _ .vmem, ⟨0, _⟩ => ⟨S4096x128, .f32⟩
  | .local _ .vmem, ⟨1, _⟩ => ⟨S128x64, .f32⟩
  | .local _ .vmem, ⟨2, _⟩ => ⟨S4096x64, .f32⟩
  | .local _ .vmem, ⟨3, _⟩ => ⟨S1024x4096, .f32⟩
  | .local _ .vmem, ⟨4, _⟩ => ⟨S1024x4096, .f32⟩
  | .local _ .vmem, ⟨5, _⟩ => ⟨S4096x64, .f32⟩
  | .local _ .vmem, ⟨6, _⟩ => ⟨S1024x64, .f32⟩
  | .local _ .vmem, ⟨7, _⟩ => ⟨S1024x64, .f32⟩
  | .local _ .vmem, ⟨8, _⟩ => ⟨S1024x4096, .f32⟩
  | .local _ .vmem, ⟨9, _⟩ => ⟨S1024x4096, .f32⟩
  | .local _ .vmem, ⟨10, _⟩ => ⟨S4096x64, .f32⟩
  | .local _ .vmem, ⟨11, _⟩ => ⟨S1024x64, .f32⟩
  | .local _ .vmem, ⟨12, _⟩ => ⟨S1024x64, .f32⟩
  | .local _ .vmem, ⟨13, _⟩ => ⟨S1024x4096, .f32⟩
  | .local _ .vmem, ⟨14, _⟩ => ⟨S1024x4096, .f32⟩
  | .local _ .vmem, ⟨15, _⟩ => ⟨S4096x64, .f32⟩
  | .local _ .vmem, ⟨16, _⟩ => ⟨S1024x64, .f32⟩
  | .local _ .vmem, ⟨17, _⟩ => ⟨S1024x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S4096x64_S4096x64 : S4096x64.ShapeCasts S4096x64
  inb_S1024x64_S1024x64_0_0 : ∀ a, (![0, 0] : Fin 2 → Nat) a + S1024x64.size a ≤ S1024x64.size a
  h_S1024x64 : 0 < S1024x64.numel
  dot_S4096x128_S128x64_S4096x64_1_0_0_1_n_n_wf : DotDims.WF S4096x128 S128x64 S4096x64 [1] [0] [0] [1] [] []
  scatter_S4096x4096_S131072x2_S131072_n_01_01_1_wf : ScatterDims.WF S4096x4096 S131072x2 S131072 [] [0, 1] [0, 1] 1
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .f32 = 32 ∨ (Rect.block (s := S4096x4096) S1024x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S4096x64.size a
  hwx2_2 : ∀ i : grid2.Coords, EltTy.bits .f32 = 32 ∨ (Rect.block (s := S4096x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S4096x4096.size a
  hwx3_0 : ∀ i : grid3.Coords, EltTy.bits .f32 = 32 ∨ (Rect.block (s := S4096x4096) S1024x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S4096x64.size a
  hwx3_1 : ∀ i : grid3.Coords, EltTy.bits .f32 = 32 ∨ (Rect.block (s := S4096x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S4096x64.size a
  hwx3_2 : ∀ i : grid3.Coords, EltTy.bits .f32 = 32 ∨ (Rect.block (s := S4096x64) S1024x64.size (cc3_transform_2 i) (hinb3_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S4096x64 : Shape := ⟨2, ![4096, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x64, .f32⟩
  | .hbm, ⟨2, _⟩ => ⟨S2x131072, .i32⟩
  | .hbm, ⟨3, _⟩ => ⟨S131072, .f32⟩
  | .hbm, ⟨4, _⟩ => ⟨S4096x64, .f32⟩
  | .hbm, ⟨5, _⟩ => ⟨S_, .f32⟩
  | .hbm, ⟨6, _⟩ => ⟨S4096x4096, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S4096x4096, .f32⟩
  | .hbm, ⟨29, _⟩ => ⟨S4096x64, .f32⟩
  | .hbm, ⟨30, _⟩ => ⟨S4096x64, .f32⟩
  | .hbm, ⟨31, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  dot_S4096x128_S128x64_S4096x64_1_0_0_1_n_n_wf : DotDims.WF S4096x128 S128x64 S4096x64 [1] [0] [0] [1] [] []
  scatter_S4096x4096_S131072x2_S131072_n_01_01_1_wf : ScatterDims.WF S4096x4096 S131072x2 S131072 [] [0, 1] [0, 1] 1
  dot_S4096x4096_S4096x64_S4096x64_1_0_0_1_n_n_wf : DotDims.WF S4096x4096 S4096x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KernelRun.lean ====
/-
  The run of the idealized kernel program with its result named.

  The program is four kernel launches with one stretch of host operations after the first. Its generated frame
  follows the buffers through the five segments: `W0` at launch, `W1` after the embedding product's launch, `W2` after
  the host stretch that builds the adjacency matrix, and `W3`, `W4`, `W5` after the three launches that multiply by it.
  Every execution ends with every unscoped buffer at `W5`. The frame reads only the four arguments off `W5`; here the
  result buffer is read off it as well, so that the run's post says what the program returns:
  `W5 m ρ c main_v22`, a term that the value modules then compute.
-/
import proofs.«174436_j43284680409688_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four arguments as launched. -/
theorem run_result : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibProduct.lean ====
/-
  The product of a matrix of extended reals with another, as one function of its two factors.

  Entry (i, j) of the product of an [M, K] array with a [K, N] array is the sum over k of l (i, k) * r (k, j).
  On the extended reals a matrix unit's product into a zero accumulator and the host's dot_general (contraction of
  the left factor's columns with the right factor's rows, no batch axis) are both exactly this function.

  A block of consecutive rows of a product is the product of the same rows of the left factor with the whole right
  factor: each entry's sum runs over the whole shared axis and mentions one row of the left factor only. That is all
  that a product computed a band of rows at a time needs.
-/
import proofs.«174436_j43284680409688_2_alg».proof.Proof.LibMatmulSum

noncomputable section

namespace Cert.Product

open Idealize.ShloMosaic Idealize.ShloMosaic.ValueIdx

/-- The product of an [M, K] array and a [K, N] array: entry (i, j) is the sum over k of l (i, k) * r (k, j). -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (j : (⟨2, ![M, N]⟩ : Shape).Idx) : mm l r j = ∑ k : Fin K, l (ix2 (j 0) k) * r (ix2 k (j 1)) := rfl

variable {M K N : Nat} (d : DotDims ⟨2, ![M, K]⟩ ⟨2, ![K, N]⟩ ⟨2, ![M, N]⟩)

/-- The host's dot_general of a plain product is the product. -/
theorem dotGeneral_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral (F := Ideal) d prec l r = mm l r :=
  funext fun j => MatmulSum.dotGeneral_apply d hlc hrc hln hrn hlb hrb prec .single l r j

/-- A matrix unit's product into the zero accumulator is the product. -/
theorem matmul_zero_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    matmul (F := Ideal) d prec l r (constant ⟨2, ![M, N]⟩ .f32 0x00000000#32) = mm l r :=
  funext fun j => MatmulSum.matmul_zero_apply d hlc hrc hln hrn hlb hrb prec l r j

/-- Rows `o, o + 1, …` of a product: if `lb` holds the rows of `l` from row `o` on (`hl`), then the product of `lb`
    with `r` at (p, q) is the product of `l` with `r` at (o + p, q). -/
theorem mm_rows {M' : Nat} (l : (⟨2, ![M, K]⟩ : Shape).Idx → EReal) (lb : (⟨2, ![M', K]⟩ : Shape).Idx → EReal)
    (r : (⟨2, ![K, N]⟩ : Shape).Idx → EReal) (p : Fin M') (i : Fin M) (q : Fin N)
    (hl : ∀ k : Fin K, lb (ix2 p k) = l (ix2 i k)) :
    mm lb r (ix2 p q) = mm l r (ix2 i q) :=
  Finset.sum_congr rfl fun k _ => by rw [show (ix2 p q : (⟨2, ![M', N]⟩ : Shape).Idx) 0 = p from rfl,
    show (ix2 p q : (⟨2, ![M', N]⟩ : Shape).Idx) 1 = q from rfl, show (ix2 i q : (⟨2, ![M, N]⟩ : Shape).Idx) 0 = i from rfl,
    show (ix2 i q : (⟨2, ![M, N]⟩ : Shape).Idx) 1 = q from rfl, hl k]

end Cert.Product

end
-- ==== Proof.Region0.lean ====
/-
  Launch 0 (the embedding: node features times the embedding matrix): what its result array ends holding.

  The launch has one grid point. It stages the whole [4096, 128] left factor and the whole [128, 64] right factor and
  writes back the whole [4096, 64] result: their product into a zero accumulator. So the one block written back is
  the product of the two arrays as the launch finds them, and it covers the result. The statement is over any entry
  contents `V`.
-/
import proofs.«174436_j43284680409688_2_alg».proof.Proof.Gen.KernelIdeal.Frame
import proofs.«174436_j43284680409688_2_alg».proof.Proof.LibProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the staged left factor times the staged right factor, the accumulator the zero
    splat. -/
theorem pay_eq (x0 : Vec Ideal S4096x128 .f32) (x1 : Vec Ideal S128x64 .f32) :
    k0_pay1 (F := Ideal) x0 x1 = mm x0 x1 := by
  unfold k0_pay1
  exact matmul_zero_eq_mm dot_S4096x128_S128x64_S4096x64_1_0_0_1_n_n rfl rfl rfl rfl rfl rfl none x0 x1

/-- The index maps over the one-point grid: every block index is 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The staged left factor is the whole left factor. -/
theorem left_apply (c : Dev nD) (t : Fin cfg0.N) (y : S4096x128.Idx) :
    (iblk0 V c 0 t : Vec Ideal S4096x128 .f32) y = (V c main_arg0 : S4096x128.Idx → EReal) y := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 4096 + 1 * (y 0).val = (y 0).val; rw [e0]; omega
  | ⟨1, _⟩ => show win0_0.index t 1 * 128 + 1 * (y 1).val = (y 1).val; rw [e1]; omega

/-- The staged right factor is the whole right factor. -/
theorem right_apply (c : Dev nD) (t : Fin cfg0.N) (y : S128x64.Idx) :
    (iblk0 V c 1 t : Vec Ideal S128x64 .f32) y = (V c main_arg1 : S128x64.Idx → EReal) y := by
  obtain ⟨-, -, e2, e3, -, -⟩ := idx_facts t
  unfold iblk0
  rw [View.read_apply]
  show V c main_arg1 _ = V c main_arg1 _
  refine congrArg (V c main_arg1) ?_
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- The product of two arrays that are entry by entry the two factors, read at the same place, is the factors'
    product there. -/
theorem whole_entry (a : S4096x128.Idx → EReal) (b : S128x64.Idx → EReal)
    (ab : S4096x128.Idx → EReal) (bb : S128x64.Idx → EReal) (ha : ∀ y, ab y = a y) (hb : ∀ y, bb y = b y)
    (j i : S4096x64.Idx) (hi0 : (i 0).val = (j 0).val) (hi1 : (i 1).val = (j 1).val) :
    mm ab bb j = mm a b i := by
  obtain rfl : ab = a := funext ha
  obtain rfl : bb = b := funext hb
  obtain rfl : i = j := funext fun d => Fin.ext (by
    match d with
    | ⟨0, _⟩ => exact hi0
    | ⟨1, _⟩ => exact hi1)
  rfl

/-- What the one point writes back is the product of the two arrays as the launch finds them. -/
theorem flushed_eq (c : Dev nD) (t : Fin cfg0.N) :
    (dat0 V c).flushed 2 t
      = ((cfg0.win 2).blk t).view.read (Elt Ideal) (mm (V c main_arg0 : S4096x128.Idx → EReal) (V c main_arg1 : S128x64.Idx → EReal)) := by
  show (cfg0.win 2).cut (grid0.coords t) ((dat0 V c).after 2 t) = _
  rw [after0_2]
  unfold out0_2
  rw [View.canon_unit_zero hz]
  simp only [View.ld_unit_zero (S := S4096x128) hz, View.ld_unit_zero (S := S128x64) hz]
  rw [pay_eq]
  obtain ⟨-, -, -, -, e4, e5⟩ := idx_facts t
  funext j
  show mm (iblk0 V c 0 t : Vec Ideal S4096x128 .f32) (iblk0 V c 1 t : Vec Ideal S128x64 .f32) j
    = mm (V c main_arg0 : S4096x128.Idx → EReal) (V c main_arg1 : S128x64.Idx → EReal) (((cfg0.win 2).blk t).view.emb j)
  refine whole_entry (V c main_arg0) (V c main_arg1) (iblk0 V c 0 t) (iblk0 V c 1 t)
    (fun y => left_apply V c t y) (fun y => right_apply V c t y) j (((cfg0.win 2).blk t).view.emb j) ?_ ?_
  · show win0_2.index t 0 * 4096 + 1 * (j 0).val = (j 0).val; rw [e4]; omega
  · show win0_2.index t 1 * 64 + 1 * (j 1).val = (j 1).val; rw [e5]; omega

/-- An index of the result is in the point's block iff each coordinate is in the block's range. -/
theorem mem_blk (t : Fin cfg0.N) (i : S4096x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v0).slice (win0_2.rect t)).set ↔ _
  rw [View.set_slice_whole, Rect.mem_set_unit]
  exact Iff.rfl

/-- The one block covers the result. -/
theorem cover (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  obtain ⟨-, -, -, -, e4, e5⟩ := idx_facts t0_0
  refine ⟨t0_0, flush0_2 t0_0, ?_⟩
  rw [mem_blk]
  intro a
  match a with
  | ⟨0, _⟩ => show win0_2.index t0_0 0 * 4096 ≤ (i 0).val ∧ (i 0).val < win0_2.index t0_0 0 * 4096 + 4096; rw [e4]; omega
  | ⟨1, _⟩ => show win0_2.index t0_0 1 * 64 ≤ (i 1).val ∧ (i 1).val < win0_2.index t0_0 1 * 64 + 64; rw [e5]; omega

/-- The result array after the launch: the product of the two arrays as the launch finds them. -/
theorem final (c : Dev nD) :
    (dat0 V c).arrAt 2 cfg0.N = mm (V c main_arg0 : S4096x128.Idx → EReal) (V c main_arg1 : S128x64.Idx → EReal) :=
  (dat0 V c).arrAt_eq_of_cover 2 _ (fun t _ => flushed_eq V c t) cover

end Cert.KernelIdeal.Region0

end
-- ==== Proof.Region1.lean ====
/-
  Launch 1 (rows of the adjacency matrix times the current features): what its result array ends holding.

  The launch runs over four grid points. Point t stages rows 1024·t … 1024·t + 1023 of the [4096, 4096] left factor
  (all 4096 columns), the whole [4096, 64] right factor, and writes back rows 1024·t … 1024·t + 1023 of the
  [4096, 64] result: the staged band's product with the right factor into a zero accumulator. A band of rows of a
  product is the product of the band, so what point t writes back is block t of ONE function of the two arrays as
  the launch finds them — their product — and the four row blocks cover the result. Hence the result array ends
  holding the product of the two arrays, whatever they held: the statement is over any entry contents `V`.
-/
import proofs.«174436_j43284680409688_2_alg».proof.Proof.Gen.KernelIdeal.Frame
import proofs.«174436_j43284680409688_2_alg».proof.Proof.LibProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the staged band times the staged right factor (the two casts are of a shape to
    itself, the accumulator is the zero splat). -/
theorem pay_eq (x0 : Vec Ideal S1024x4096 .f32) (x1 : Vec Ideal S4096x64 .f32) :
    k1_pay1 (F := Ideal) x0 x1 = mm x0 x1 := by
  unfold k1_pay1
  simp only [shapeCast_self]
  exact matmul_zero_eq_mm dot_S1024x4096_S4096x64_S1024x64_1_0_0_1_n_n rfl rfl rfl rfl rfl rfl none x0 x1

/-- The index maps over the grid: the left factor's and the result's row block is the point's number, every
    column block is 0, and the right factor's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged band at point t is rows 1024·t … of the left factor. -/
theorem band_apply (c : Dev nD) (t : Fin cfg1.N) (y : S1024x4096.Idx) (i : S4096x4096.Idx)
    (hi0 : (i 0).val = 1024 * t.val + (y 0).val) (hi1 : (i 1).val = (y 1).val) :
    (iblk1 V c 0 t : Vec Ideal S1024x4096 .f32) y = (V c main_v19 : S4096x4096.Idx → EReal) i := by
  obtain ⟨e0, e1, -, -, -, -⟩ := idx_facts t
  unfold iblk1
  rw [View.read_apply]
  show V c main_v19 _ = V c main_v19 _
  refine congrArg (V c main_v19) ?_
  funext a
  apply Fin.ext
  match a with
  | ⟨0, _⟩ => show win1_0.index t 0 * 1024 + 1 * (y 0).val = (i 0).val; rw [e0, hi0]; omega
  | ⟨1, _⟩ => show win1_0.index t 1 * 4096 + 1 * (y 1).val = (i 1).val; rw [e1, hi1]; omega

/-- The staged right factor at any point is the whole right factor. -/
theorem right_apply (c : Dev nD) (t : Fin cfg1.N) (y : S4096x64.Idx) :
    (iblk1 V c 1 t : Vec Ideal S4096x64 .f32) y = (V c main_v0 : S4096x64.Idx → EReal) y := by
  obtain ⟨-, -, e2, e3, -, -⟩ := idx_facts t
  unfold iblk1
  rw [View.read_apply]
  show V c main_v0 _ = V c main_v0 _
  refine congrArg (V c main_v0) ?_
  funext a
  apply Fin.ext
  match a with
  | ⟨0, _⟩ => show win1_1.index t 0 * 4096 + 1 * (y 0).val = (y 0).val; rw [e2]; omega
  | ⟨1, _⟩ => show win1_1.index t 1 * 64 + 1 * (y 1).val = (y 1).val; rw [e3]; omega

/-- An entry of the band's product is the entry of the whole product in the band's row. -/
theorem band_entry (A : S4096x4096.Idx → EReal) (x : S4096x64.Idx → EReal)
    (Ab : S1024x4096.Idx → EReal) (xb : S4096x64.Idx → EReal) (n : Nat)
    (hA : ∀ (y : S1024x4096.Idx) (i : S4096x4096.Idx), (i 0).val = 1024 * n + (y 0).val → (i 1).val = (y 1).val → Ab y = A i)
    (hx : ∀ y, xb y = x y) (j : S1024x64.Idx) (i : S4096x64.Idx)
    (hi0 : (i 0).val = 1024 * n + (j 0).val) (hi1 : (i 1).val = (j 1).val) :
    mm Ab xb j = mm A x i := by
  obtain rfl : xb = x := funext hx
  obtain ⟨p, q, rfl⟩ : ∃ (p : Fin 1024) (q : Fin 64), j = ix2 p q := ⟨j 0, j 1, eq_ix2 j⟩
  obtain ⟨r, s, rfl⟩ : ∃ (r : Fin 4096) (s : Fin 64), i = ix2 r s := ⟨i 0, i 1, eq_ix2 i⟩
  obtain rfl : s = q := Fin.ext hi1
  exact mm_rows A Ab xb p r s fun k => hA (ix2 p k) (ix2 r k) hi0 rfl

/-- What point t writes back is block t of the product of the two arrays as the launch finds them. -/
theorem flushed_eq (c : Dev nD) (t : Fin cfg1.N) :
    (dat1 V c).flushed 2 t
      = ((cfg1.win 2).blk t).view.read (Elt Ideal) (mm (V c main_v19 : S4096x4096.Idx → EReal) (V c main_v0 : S4096x64.Idx → EReal)) := by
  show (cfg1.win 2).cut (grid1.coords t) ((dat1 V c).after 2 t) = _
  rw [after1_2]
  unfold out1_2
  rw [View.canon_unit_zero hz]
  simp only [View.ld_unit_zero (S := S1024x4096) hz, View.ld_unit_zero (S := S4096x64) hz]
  rw [pay_eq]
  obtain ⟨-, -, -, -, e4, e5⟩ := idx_facts t
  funext j
  show mm (iblk1 V c 0 t : Vec Ideal S1024x4096 .f32) (iblk1 V c 1 t : Vec Ideal S4096x64 .f32) j
    = mm (V c main_v19 : S4096x4096.Idx → EReal) (V c main_v0 : S4096x64.Idx → EReal) (((cfg1.win 2).blk t).view.emb j)
  refine band_entry (V c main_v19) (V c main_v0) (iblk1 V c 0 t) (iblk1 V c 1 t) t.val
    (fun y i h0 h1 => band_apply V c t y i h0 h1) (fun y => right_apply V c t y) j (((cfg1.win 2).blk t).view.emb j) ?_ ?_
  · show win1_2.index t 0 * 1024 + 1 * (j 0).val = 1024 * t.val + (j 0).val; rw [e4]; omega
  · show win1_2.index t 1 * 64 + 1 * (j 1).val = (j 1).val; rw [e5]; omega

/-- An index of the result is in point t's block iff its row is in the t-th band of 1024 rows. -/
theorem mem_blk (t : Fin cfg1.N) (i : S4096x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v20).slice (win1_2.rect t)).set ↔ _
  rw [View.set_slice_whole, Rect.mem_set_unit]
  exact Iff.rfl

/-- The four row bands cover the result: row r is in band r / 1024. -/
theorem cover (i : S4096x64.Idx) : ∃ t : Fin cfg1.N, (cfg1.win 2).flush t = true ∧ i ∈ ((cfg1.win 2).blk t).view.set := by
  have hi0 : (i 0).val < 4096 := (i 0).isLt
  have hi1 : (i 1).val < 64 := (i 1).isLt
  have hN : grid1.N = 4 := N_1
  let t : Fin cfg1.N := ⟨(i 0).val / 1024, by show (i 0).val / 1024 < grid1.N; rw [hN]; omega⟩
  obtain ⟨-, -, -, -, e4, e5⟩ := idx_facts t
  have ht : t.val = (i 0).val / 1024 := rfl
  refine ⟨t, flush1_2 t, ?_⟩
  rw [mem_blk]
  intro a
  match a with
  | ⟨0, _⟩ => show win1_2.index t 0 * 1024 ≤ (i 0).val ∧ (i 0).val < win1_2.index t 0 * 1024 + 1024; rw [e4, ht]; omega
  | ⟨1, _⟩ => show win1_2.index t 1 * 64 ≤ (i 1).val ∧ (i 1).val < win1_2.index t 1 * 64 + 64; rw [e5]; omega

/-- The result array after the launch: the product of the two arrays as the launch finds them. -/
theorem final (c : Dev nD) :
    (dat1 V c).arrAt 2 cfg1.N = mm (V c main_v19 : S4096x4096.Idx → EReal) (V c main_v0 : S4096x64.Idx → EReal) :=
  (dat1 V c).arrAt_eq_of_cover 2 _ (fun t _ => flushed_eq V c t) cover

end Cert.KernelIdeal.Region1

end
-- ==== Proof.Region2.lean ====
/-
  Launch 2 (rows of the adjacency matrix times the current features): what its result array ends holding.

  The launch runs over four grid points. Point t stages rows 1024·t … 1024·t + 1023 of the [4096, 4096] left factor
  (all 4096 columns), the whole [4096, 64] right factor, and writes back rows 1024·t … 1024·t + 1023 of the
  [4096, 64] result: the staged band's product with the right factor into a zero accumulator. A band of rows of a
  product is the product of the band, so what point t writes back is block t of ONE function of the two arrays as
  the launch finds them — their product — and the four row blocks cover the result. Hence the result array ends
  holding the product of the two arrays, whatever they held: the statement is over any entry contents `V`.
-/
import proofs.«174436_j43284680409688_2_alg».proof.Proof.Gen.KernelIdeal.Frame
import proofs.«174436_j43284680409688_2_alg».proof.Proof.LibProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the staged band times the staged right factor (the two casts are of a shape to
    itself, the accumulator is the zero splat). -/
theorem pay_eq (x0 : Vec Ideal S1024x4096 .f32) (x1 : Vec Ideal S4096x64 .f32) :
    k2_pay1 (F := Ideal) x0 x1 = mm x0 x1 := by
  unfold k2_pay1
  simp only [shapeCast_self]
  exact matmul_zero_eq_mm dot_S1024x4096_S4096x64_S1024x64_1_0_0_1_n_n rfl rfl rfl rfl rfl rfl none x0 x1

/-- The index maps over the grid: the left factor's and the result's row block is the point's number, every
    column block is 0, and the right factor's block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged band at point t is rows 1024·t … of the left factor. -/
theorem band_apply (c : Dev nD) (t : Fin cfg2.N) (y : S1024x4096.Idx) (i : S4096x4096.Idx)
    (hi0 : (i 0).val = 1024 * t.val + (y 0).val) (hi1 : (i 1).val = (y 1).val) :
    (iblk2 V c 0 t : Vec Ideal S1024x4096 .f32) y = (V c main_v19 : S4096x4096.Idx → EReal) i := by
  obtain ⟨e0, e1, -, -, -, -⟩ := idx_facts t
  unfold iblk2
  rw [View.read_apply]
  show V c main_v19 _ = V c main_v19 _
  refine congrArg (V c main_v19) ?_
  funext a
  apply Fin.ext
  match a with
  | ⟨0, _⟩ => show win2_0.index t 0 * 1024 + 1 * (y 0).val = (i 0).val; rw [e0, hi0]; omega
  | ⟨1, _⟩ => show win2_0.index t 1 * 4096 + 1 * (y 1).val = (i 1).val; rw [e1, hi1]; omega

/-- The staged right factor at any point is the whole right factor. -/
theorem right_apply (c : Dev nD) (t : Fin cfg2.N) (y : S4096x64.Idx) :
    (iblk2 V c 1 t : Vec Ideal S4096x64 .f32) y = (V c main_v20 : S4096x64.Idx → EReal) y := by
  obtain ⟨-, -, e2, e3, -, -⟩ := idx_facts t
  unfold iblk2
  rw [View.read_apply]
  show V c main_v20 _ = V c main_v20 _
  refine congrArg (V c main_v20) ?_
  funext a
  apply Fin.ext
  match a with
  | ⟨0, _⟩ => show win2_1.index t 0 * 4096 + 1 * (y 0).val = (y 0).val; rw [e2]; omega
  | ⟨1, _⟩ => show win2_1.index t 1 * 64 + 1 * (y 1).val = (y 1).val; rw [e3]; omega

/-- An entry of the band's product is the entry of the whole product in the band's row. -/
theorem band_entry (A : S4096x4096.Idx → EReal) (x : S4096x64.Idx → EReal)
    (Ab : S1024x4096.Idx → EReal) (xb : S4096x64.Idx → EReal) (n : Nat)
    (hA : ∀ (y : S1024x4096.Idx) (i : S4096x4096.Idx), (i 0).val = 1024 * n + (y 0).val → (i 1).val = (y 1).val → Ab y = A i)
    (hx : ∀ y, xb y = x y) (j : S1024x64.Idx) (i : S4096x64.Idx)
    (hi0 : (i 0).val = 1024 * n + (j 0).val) (hi1 : (i 1).val = (j 1).val) :
    mm Ab xb j = mm A x i := by
  obtain rfl : xb = x := funext hx
  obtain ⟨p, q, rfl⟩ : ∃ (p : Fin 1024) (q : Fin 64), j = ix2 p q := ⟨j 0, j 1, eq_ix2 j⟩
  obtain ⟨r, s, rfl⟩ : ∃ (r : Fin 4096) (s : Fin 64), i = ix2 r s := ⟨i 0, i 1, eq_ix2 i⟩
  obtain rfl : s = q := Fin.ext hi1
  exact mm_rows A Ab xb p r s fun k => hA (ix2 p k) (ix2 r k) hi0 rfl

/-- What point t writes back is block t of the product of the two arrays as the launch finds them. -/
theorem flushed_eq (c : Dev nD) (t : Fin cfg2.N) :
    (dat2 V c).flushed 2 t
      = ((cfg2.win 2).blk t).view.read (Elt Ideal) (mm (V c main_v19 : S4096x4096.Idx → EReal) (V c main_v20 : S4096x64.Idx → EReal)) := by
  show (cfg2.win 2).cut (grid2.coords t) ((dat2 V c).after 2 t) = _
  rw [after2_2]
  unfold out2_2
  rw [View.canon_unit_zero hz]
  simp only [View.ld_unit_zero (S := S1024x4096) hz, View.ld_unit_zero (S := S4096x64) hz]
  rw [pay_eq]
  obtain ⟨-, -, -, -, e4, e5⟩ := idx_facts t
  funext j
  show mm (iblk2 V c 0 t : Vec Ideal S1024x4096 .f32) (iblk2 V c 1 t : Vec Ideal S4096x64 .f32) j
    = mm (V c main_v19 : S4096x4096.Idx → EReal) (V c main_v20 : S4096x64.Idx → EReal) (((cfg2.win 2).blk t).view.emb j)
  refine band_entry (V c main_v19) (V c main_v20) (iblk2 V c 0 t) (iblk2 V c 1 t) t.val
    (fun y i h0 h1 => band_apply V c t y i h0 h1) (fun y => right_apply V c t y) j (((cfg2.win 2).blk t).view.emb j) ?_ ?_
  · show win2_2.index t 0 * 1024 + 1 * (j 0).val = 1024 * t.val + (j 0).val; rw [e4]; omega
  · show win2_2.index t 1 * 64 + 1 * (j 1).val = (j 1).val; rw [e5]; omega

/-- An index of the result is in point t's block iff its row is in the t-th band of 1024 rows. -/
theorem mem_blk (t : Fin cfg2.N) (i : S4096x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v21).slice (win2_2.rect t)).set ↔ _
  rw [View.set_slice_whole, Rect.mem_set_unit]
  exact Iff.rfl

/-- The four row bands cover the result: row r is in band r / 1024. -/
theorem cover (i : S4096x64.Idx) : ∃ t : Fin cfg2.N, (cfg2.win 2).flush t = true ∧ i ∈ ((cfg2.win 2).blk t).view.set := by
  have hi0 : (i 0).val < 4096 := (i 0).isLt
  have hi1 : (i 1).val < 64 := (i 1).isLt
  have hN : grid2.N = 4 := N_2
  let t : Fin cfg2.N := ⟨(i 0).val / 1024, by show (i 0).val / 1024 < grid2.N; rw [hN]; omega⟩
  obtain ⟨-, -, -, -, e4, e5⟩ := idx_facts t
  have ht : t.val = (i 0).val / 1024 := rfl
  refine ⟨t, flush2_2 t, ?_⟩
  rw [mem_blk]
  intro a
  match a with
  | ⟨0, _⟩ => show win2_2.index t 0 * 1024 ≤ (i 0).val ∧ (i 0).val < win2_2.index t 0 * 1024 + 1024; rw [e4, ht]; omega
  | ⟨1, _⟩ => show win2_2.index t 1 * 64 ≤ (i 1).val ∧ (i 1).val < win2_2.index t 1 * 64 + 64; rw [e5]; omega

/-- The result array after the launch: the product of the two arrays as the launch finds them. -/
theorem final (c : Dev nD) :
    (dat2 V c).arrAt 2 cfg2.N = mm (V c main_v19 : S4096x4096.Idx → EReal) (V c main_v20 : S4096x64.Idx → EReal) :=
  (dat2 V c).arrAt_eq_of_cover 2 _ (fun t _ => flushed_eq V c t) cover

end Cert.KernelIdeal.Region2

end
-- ==== Proof.Region3.lean ====
/-
  Launch 3 (rows of the adjacency matrix times the current features): what its result array ends holding.

  The launch runs over four grid points. Point t stages rows 1024·t … 1024·t + 1023 of the [4096, 4096] left factor
  (all 4096 columns), the whole [4096, 64] right factor, and writes back rows 1024·t … 1024·t + 1023 of the
  [4096, 64] result: the staged band's product with the right factor into a zero accumulator. A band of rows of a
  product is the product of the band, so what point t writes back is block t of ONE function of the two arrays as
  the launch finds them — their product — and the four row blocks cover the result. Hence the result array ends
  holding the product of the two arrays, whatever they held: the statement is over any entry contents `V`.
-/
import proofs.«174436_j43284680409688_2_alg».proof.Proof.Gen.KernelIdeal.Frame
import proofs.«174436_j43284680409688_2_alg».proof.Proof.LibProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the staged band times the staged right factor (the two casts are of a shape to
    itself, the accumulator is the zero splat). -/
theorem pay_eq (x0 : Vec Ideal S1024x4096 .f32) (x1 : Vec Ideal S4096x64 .f32) :
    k3_pay1 (F := Ideal) x0 x1 = mm x0 x1 := by
  unfold k3_pay1
  simp only [shapeCast_self]
  exact matmul_zero_eq_mm dot_S1024x4096_S4096x64_S1024x64_1_0_0_1_n_n rfl rfl rfl rfl rfl rfl none x0 x1

/-- The index maps over the grid: the left factor's and the result's row block is the point's number, every
    column block is 0, and the right factor's block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The staged band at point t is rows 1024·t … of the left factor. -/
theorem band_apply (c : Dev nD) (t : Fin cfg3.N) (y : S1024x4096.Idx) (i : S4096x4096.Idx)
    (hi0 : (i 0).val = 1024 * t.val + (y 0).val) (hi1 : (i 1).val = (y 1).val) :
    (iblk3 V c 0 t : Vec Ideal S1024x4096 .f32) y = (V c main_v19 : S4096x4096.Idx → EReal) i := by
  obtain ⟨e0, e1, -, -, -, -⟩ := idx_facts t
  unfold iblk3
  rw [View.read_apply]
  show V c main_v19 _ = V c main_v19 _
  refine congrArg (V c main_v19) ?_
  funext a
  apply Fin.ext
  match a with
  | ⟨0, _⟩ => show win3_0.index t 0 * 1024 + 1 * (y 0).val = (i 0).val; rw [e0, hi0]; omega
  | ⟨1, _⟩ => show win3_0.index t 1 * 4096 + 1 * (y 1).val = (i 1).val; rw [e1, hi1]; omega

/-- The staged right factor at any point is the whole right factor. -/
theorem right_apply (c : Dev nD) (t : Fin cfg3.N) (y : S4096x64.Idx) :
    (iblk3 V c 1 t : Vec Ideal S4096x64 .f32) y = (V c main_v21 : S4096x64.Idx → EReal) y := by
  obtain ⟨-, -, e2, e3, -, -⟩ := idx_facts t
  unfold iblk3
  rw [View.read_apply]
  show V c main_v21 _ = V c main_v21 _
  refine congrArg (V c main_v21) ?_
  funext a
  apply Fin.ext
  match a with
  | ⟨0, _⟩ => show win3_1.index t 0 * 4096 + 1 * (y 0).val = (y 0).val; rw [e2]; omega
  | ⟨1, _⟩ => show win3_1.index t 1 * 64 + 1 * (y 1).val = (y 1).val; rw [e3]; omega

/-- An entry of the band's product is the entry of the whole product in the band's row. -/
theorem band_entry (A : S4096x4096.Idx → EReal) (x : S4096x64.Idx → EReal)
    (Ab : S1024x4096.Idx → EReal) (xb : S4096x64.Idx → EReal) (n : Nat)
    (hA : ∀ (y : S1024x4096.Idx) (i : S4096x4096.Idx), (i 0).val = 1024 * n + (y 0).val → (i 1).val = (y 1).val → Ab y = A i)
    (hx : ∀ y, xb y = x y) (j : S1024x64.Idx) (i : S4096x64.Idx)
    (hi0 : (i 0).val = 1024 * n + (j 0).val) (hi1 : (i 1).val = (j 1).val) :
    mm Ab xb j = mm A x i := by
  obtain rfl : xb = x := funext hx
  obtain ⟨p, q, rfl⟩ : ∃ (p : Fin 1024) (q : Fin 64), j = ix2 p q := ⟨j 0, j 1, eq_ix2 j⟩
  obtain ⟨r, s, rfl⟩ : ∃ (r : Fin 4096) (s : Fin 64), i = ix2 r s := ⟨i 0, i 1, eq_ix2 i⟩
  obtain rfl : s = q := Fin.ext hi1
  exact mm_rows A Ab xb p r s fun k => hA (ix2 p k) (ix2 r k) hi0 rfl

/-- What point t writes back is block t of the product of the two arrays as the launch finds them. -/
theorem flushed_eq (c : Dev nD) (t : Fin cfg3.N) :
    (dat3 V c).flushed 2 t
      = ((cfg3.win 2).blk t).view.read (Elt Ideal) (mm (V c main_v19 : S4096x4096.Idx → EReal) (V c main_v21 : S4096x64.Idx → EReal)) := by
  show (cfg3.win 2).cut (grid3.coords t) ((dat3 V c).after 2 t) = _
  rw [after3_2]
  unfold out3_2
  rw [View.canon_unit_zero hz]
  simp only [View.ld_unit_zero (S := S1024x4096) hz, View.ld_unit_zero (S := S4096x64) hz]
  rw [pay_eq]
  obtain ⟨-, -, -, -, e4, e5⟩ := idx_facts t
  funext j
  show mm (iblk3 V c 0 t : Vec Ideal S1024x4096 .f32) (iblk3 V c 1 t : Vec Ideal S4096x64 .f32) j
    = mm (V c main_v19 : S4096x4096.Idx → EReal) (V c main_v21 : S4096x64.Idx → EReal) (((cfg3.win 2).blk t).view.emb j)
  refine band_entry (V c main_v19) (V c main_v21) (iblk3 V c 0 t) (iblk3 V c 1 t) t.val
    (fun y i h0 h1 => band_apply V c t y i h0 h1) (fun y => right_apply V c t y) j (((cfg3.win 2).blk t).view.emb j) ?_ ?_
  · show win3_2.index t 0 * 1024 + 1 * (j 0).val = 1024 * t.val + (j 0).val; rw [e4]; omega
  · show win3_2.index t 1 * 64 + 1 * (j 1).val = (j 1).val; rw [e5]; omega

/-- An index of the result is in point t's block iff its row is in the t-th band of 1024 rows. -/
theorem mem_blk (t : Fin cfg3.N) (i : S4096x64.Idx) :
    i ∈ ((cfg3.win 2).blk t).view.set ↔ ∀ a : Fin 2, win3_2.index t a * S1024x64.size a ≤ (i a).val ∧ (i a).val < win3_2.index t a * S1024x64.size a + S1024x64.size a := by
  show i ∈ ((View.whole main_v22).slice (win3_2.rect t)).set ↔ _
  rw [View.set_slice_whole, Rect.mem_set_unit]
  exact Iff.rfl

/-- The four row bands cover the result: row r is in band r / 1024. -/
theorem cover (i : S4096x64.Idx) : ∃ t : Fin cfg3.N, (cfg3.win 2).flush t = true ∧ i ∈ ((cfg3.win 2).blk t).view.set := by
  have hi0 : (i 0).val < 4096 := (i 0).isLt
  have hi1 : (i 1).val < 64 := (i 1).isLt
  have hN : grid3.N = 4 := N_3
  let t : Fin cfg3.N := ⟨(i 0).val / 1024, by show (i 0).val / 1024 < grid3.N; rw [hN]; omega⟩
  obtain ⟨-, -, -, -, e4, e5⟩ := idx_facts t
  have ht : t.val = (i 0).val / 1024 := rfl
  refine ⟨t, flush3_2 t, ?_⟩
  rw [mem_blk]
  intro a
  match a with
  | ⟨0, _⟩ => show win3_2.index t 0 * 1024 ≤ (i 0).val ∧ (i 0).val < win3_2.index t 0 * 1024 + 1024; rw [e4, ht]; omega
  | ⟨1, _⟩ => show win3_2.index t 1 * 64 ≤ (i 1).val ∧ (i 1).val < win3_2.index t 1 * 64 + 64; rw [e5]; omega

/-- The result array after the launch: the product of the two arrays as the launch finds them. -/
theorem final (c : Dev nD) :
    (dat3 V c).arrAt 2 cfg3.N = mm (V c main_v19 : S4096x4096.Idx → EReal) (V c main_v21 : S4096x64.Idx → EReal) :=
  (dat3 V c).arrAt_eq_of_cover 2 _ (fun t _ => flushed_eq V c t) cover

end Cert.KernelIdeal.Region3

end
-- ==== Proof.Adjacency.lean ====
/-
  The dense adjacency matrix the program builds from the edge list.

  Both programs build it on the host with the same operations: the two rows of the [2, 131072] integer edge index
  are sliced out, each index below zero is wrapped by adding 4096, the two columns are joined into [131072, 2] index
  pairs, and the [131072] edge weights are scattered (the later write wins) into a [4096, 4096] array of zeros. The
  kernel program and the reference compute nothing else of the edge list, so this file names that one function of
  the two arguments and no proof ever opens it: the two sides are compared as "the same function of equal
  arguments".
-/
import proofs.«174436_j43284680409688_2_alg».proof.Proof.Gen.KernelIdeal

noncomputable section

namespace Cert.KernelIdeal.Host

open Cert.KernelIdeal Cert.KernelIdeal.Gen Idealize.ShloMosaic Idealize.ShloMosaic.TcCoe

variable {F : FTy → Type} [FloatOps F]

/-- The adjacency matrix as the host operations compute it from the edge index `e` and the edge weights `w`. -/
def adj (e : (⟨S2x131072, .i32⟩ : BufTy).Contents (Elt F)) (w : (⟨S131072, .f32⟩ : BufTy).Contents (Elt F)) :
    (⟨S4096x4096, .f32⟩ : BufTy).Contents (Elt F) :=
  Host.scatter scatter_S4096x4096_S131072x2_S131072_n_01_01_1 (fun _ b => b) (broadcastInDim S4096x4096 ![] bcast_S_S4096x4096 (constant S_ .f32 0x00000000#32)) (concatenate S131072x2 1 [⟨S131072x1, (broadcastInDim S131072x1 ![0] bcast_S131072_S131072x1_0 (select (cmpi .slt (shapeCast _ (extractStridedSlice S1x131072 ![0, 0] e slices_S2x131072_S1x131072_0_0) shapeCasts_S1x131072_S131072) (broadcastInDim S131072 ![] bcast_S_S131072 (constantI S_ 32 0#32))) (addi (shapeCast _ (extractStridedSlice S1x131072 ![0, 0] e slices_S2x131072_S1x131072_0_0) shapeCasts_S1x131072_S131072) (broadcastInDim S131072 ![] bcast_S_S131072 (constantI S_ 32 4096#32))) (shapeCast _ (extractStridedSlice S1x131072 ![0, 0] e slices_S2x131072_S1x131072_0_0) shapeCasts_S1x131072_S131072)))⟩, ⟨S131072x1, (broadcastInDim S131072x1 ![0] bcast_S131072_S131072x1_0 (select (cmpi .slt (shapeCast _ (extractStridedSlice S1x131072 ![1, 0] e slices_S2x131072_S1x131072_1_0) shapeCasts_S1x131072_S131072) (broadcastInDim S131072 ![] bcast_S_S131072 (constantI S_ 32 0#32))) (addi (shapeCast _ (extractStridedSlice S1x131072 ![1, 0] e slices_S2x131072_S1x131072_1_0) shapeCasts_S1x131072_S131072) (broadcastInDim S131072 ![] bcast_S_S131072 (constantI S_ 32 4096#32))) (shapeCast _ (extractStridedSlice S1x131072 ![1, 0] e slices_S2x131072_S1x131072_1_0) shapeCasts_S1x131072_S131072)))⟩] concatenates_S131072x1_S131072x1_S131072x2_d1) w

end Cert.KernelIdeal.Host

end
-- ==== Proof.HostStretch.lean ====
/-
  The one stretch of host operations of the kernel program, between the embedding launch and the three launches
  that multiply by the adjacency matrix.

  The stretch reads the edge index and the edge weights (arguments, which the embedding launch does not touch) and
  writes the adjacency matrix; it does not write the embedding launch's result. So at the stretch's end the
  adjacency buffer holds `adj` of the two arguments as launched, and the embedding's result is still what the
  embedding launch left.
-/
import proofs.«174436_j43284680409688_2_alg».proof.Proof.Gen.KernelIdeal.Frame
import proofs.«174436_j43284680409688_2_alg».proof.Proof.Adjacency
import Idealize.ShloMosaic.Lib.StableHlo.Run

set_option maxRecDepth 16384

noncomputable section

namespace Cert.KernelIdeal.HostStretch

open Cert.KernelIdeal Cert.KernelIdeal.Gen Cert.KernelIdeal.Host
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The embedding launch leaves the edge index as launched. -/
theorem W1_arg2 (c : Dev nD) : W1 m ρ c (Proc.devRef .tc main_arg2) = m ((c : Thread nD τ).loc main_arg2) :=
  (W1_of_ne m ρ c main_arg2 (by decide)).trans rfl

/-- The embedding launch leaves the edge weights as launched. -/
theorem W1_arg3 (c : Dev nD) : W1 m ρ c (Proc.devRef .tc main_arg3) = m ((c : Thread nD τ).loc main_arg3) :=
  (W1_of_ne m ρ c main_arg3 (by decide)).trans rfl

set_option maxHeartbeats 2000000 in
/-- After the stretch the adjacency buffer holds `adj` of the edge index and the edge weights the stretch found. -/
theorem W2_v19_of_W1 (c : Dev nD) :
    W2 m ρ c (Proc.devRef .tc main_v19)
      = adj (W1 m ρ c (Proc.devRef .tc main_arg2)) (W1 m ρ c (Proc.devRef .tc main_arg3)) := by
  show StableHlo.after hostOps1 (W1 m ρ c) (Proc.devRef .tc main_v19) = _
  after_results <;> first | rfl | (unfold adj; rfl)

/-- After the stretch the adjacency buffer holds `adj` of the two arguments as launched. -/
theorem W2_v19 (c : Dev nD) :
    W2 m ρ c (Proc.devRef .tc main_v19)
      = adj (m ((c : Thread nD τ).loc main_arg2)) (m ((c : Thread nD τ).loc main_arg3)) := by
  rw [W2_v19_of_W1, W1_arg2, W1_arg3]

set_option maxHeartbeats 2000000 in
/-- The stretch does not write the embedding's result. -/
theorem W2_v0 (c : Dev nD) : W2 m ρ c (Proc.devRef .tc main_v0) = W1 m ρ c (Proc.devRef .tc main_v0) := by
  show StableHlo.after hostOps1 (W1 m ρ c) (Proc.devRef .tc main_v0) = _
  after_results <;> rfl

end Cert.KernelIdeal.HostStretch

end
-- ==== Proof.RefValue.lean ====
/-
  The reference's result as the same function of the arguments as the kernel program's.

  The reference computes the embedding product, builds the adjacency matrix, and multiplies by it three times, each
  product one host dot_general. On the extended reals each dot_general is the plain product `mm`, and the adjacency
  matrix is the kernel program's `adj` of the same two arguments (the same host operations, written once for each
  program). So its result is `chain (adj e w) x E = A · (A · (A · (x · E)))`.
-/
import proofs.«174436_j43284680409688_2_alg».proof.Proof.Gen.ReferenceIdeal.Run
import proofs.«174436_j43284680409688_2_alg».proof.Proof.Adjacency
import proofs.«174436_j43284680409688_2_alg».proof.Proof.LibProduct

noncomputable section

namespace Cert.Product

open Idealize.ShloMosaic

/-- The program's result as a function of the adjacency matrix, the node features and the embedding matrix:
    the embedding multiplied three times by the adjacency matrix. -/
def chain (A : (⟨2, ![4096, 4096]⟩ : Shape).Idx → EReal) (x : (⟨2, ![4096, 128]⟩ : Shape).Idx → EReal)
    (E : (⟨2, ![128, 64]⟩ : Shape).Idx → EReal) : (⟨2, ![4096, 64]⟩ : Shape).Idx → EReal :=
  mm A (mm A (mm A (mm x E)))

end Cert.Product

namespace Cert.ReferenceIdeal.RefValue

open Cert.ReferenceIdeal Cert.ReferenceIdeal.Gen Cert.ReferenceIdeal.Value Cert.Product
open Idealize.ShloMosaic Idealize.ShloMosaic.TcCoe Idealize.SL.Sem

/-- The reference's run term is four host products over the adjacency matrix `adj` of the edge arguments. -/
theorem res_shape (m : (ℓ : Loc nD τ sig) → Buf (Elt Ideal) ℓ) (c : Dev nD) :
    res_main_v22 (F := Ideal) m c
      = Host.dotGeneral (F := Ideal) (φ₁ := .f32) (φ₂ := .f32) dot_S4096x4096_S4096x64_S4096x64_1_0_0_1_n_n none
          (Cert.KernelIdeal.Host.adj (F := Ideal) (m ((c.tc : Thread nD τ).loc main_arg2)) (m ((c.tc : Thread nD τ).loc main_arg3)))
          (Host.dotGeneral (F := Ideal) (φ₁ := .f32) (φ₂ := .f32) dot_S4096x4096_S4096x64_S4096x64_1_0_0_1_n_n none
            (Cert.KernelIdeal.Host.adj (F := Ideal) (m ((c.tc : Thread nD τ).loc main_arg2)) (m ((c.tc : Thread nD τ).loc main_arg3)))
            (Host.dotGeneral (F := Ideal) (φ₁ := .f32) (φ₂ := .f32) dot_S4096x4096_S4096x64_S4096x64_1_0_0_1_n_n none
              (Cert.KernelIdeal.Host.adj (F := Ideal) (m ((c.tc : Thread nD τ).loc main_arg2)) (m ((c.tc : Thread nD τ).loc main_arg3)))
              (Host.dotGeneral (F := Ideal) (φ₁ := .f32) (φ₂ := .f32) dot_S4096x128_S128x64_S4096x64_1_0_0_1_n_n none
                (m ((c.tc : Thread nD τ).loc main_arg0)) (m ((c.tc : Thread nD τ).loc main_arg1))))) := by
  unfold res_main_v22 Cert.KernelIdeal.Host.adj
  rfl

/-- The reference's result is `chain` of the adjacency matrix and the two float arguments. -/
theorem res_eq (m : (ℓ : Loc nD τ sig) → Buf (Elt Ideal) ℓ) (c : Dev nD) :
    res_main_v22 (F := Ideal) m c
      = chain (Cert.KernelIdeal.Host.adj (F := Ideal) (m ((c.tc : Thread nD τ).loc main_arg2)) (m ((c.tc : Thread nD τ).loc main_arg3)))
          (m ((c.tc : Thread nD τ).loc main_arg0)) (m ((c.tc : Thread nD τ).loc main_arg1)) := by
  rw [res_shape]
  generalize Cert.KernelIdeal.Host.adj (F := Ideal) (m ((c.tc : Thread nD τ).loc main_arg2)) (m ((c.tc : Thread nD τ).loc main_arg3)) = A
  generalize m ((c.tc : Thread nD τ).loc main_arg0) = x
  generalize m ((c.tc : Thread nD τ).loc main_arg1) = E
  unfold chain
  rw [dotGeneral_eq_mm dot_S4096x128_S128x64_S4096x64_1_0_0_1_n_n rfl rfl rfl rfl rfl rfl none x E]
  rw [dotGeneral_eq_mm dot_S4096x4096_S4096x64_S4096x64_1_0_0_1_n_n rfl rfl rfl rfl rfl rfl none A (mm x E)]
  rw [dotGeneral_eq_mm dot_S4096x4096_S4096x64_S4096x64_1_0_0_1_n_n rfl rfl rfl rfl rfl rfl none A (mm A (mm x E))]
  rw [dotGeneral_eq_mm dot_S4096x4096_S4096x64_S4096x64_1_0_0_1_n_n rfl rfl rfl rfl rfl rfl none A (mm A (mm A (mm x E)))]

end Cert.ReferenceIdeal.RefValue

end
-- ==== Proof.KernelValue.lean ====
/-
  What the idealized kernel program returns, as one function of its arguments.

  The result buffer is written by the last launch only. Reading it at the last boundary `W5` and walking back:

    W5 result   = (adjacency at W4) · (features-3 at W4)           launch 3
    features-3  = (adjacency at W3) · (features-2 at W3)           launch 2, its result buffer at W4
    features-2  = (adjacency at W2) · (embedding at W2)            launch 1, its result buffer at W3
    adjacency   = adj (edge index) (edge weights)                  the host stretch, W1 → W2
    embedding   = (node features) · (embedding matrix)             launch 0, its result buffer at W1 = at W2

  A launch leaves the arrays of its input windows as it found them, so the adjacency buffer is the same at W2, W3 and
  W4. The products are the per-launch lemmas (`Region0.final` … `Region3.final`), each at the boundary the launch is
  entered from. The outcome is `chain (adj e w) x E`.
-/
import proofs.«174436_j43284680409688_2_alg».proof.Proof.Region0
import proofs.«174436_j43284680409688_2_alg».proof.Proof.Region1
import proofs.«174436_j43284680409688_2_alg».proof.Proof.Region2
import proofs.«174436_j43284680409688_2_alg».proof.Proof.Region3
import proofs.«174436_j43284680409688_2_alg».proof.Proof.HostStretch
import proofs.«174436_j43284680409688_2_alg».proof.Proof.RefValue

set_option maxRecDepth 16384

noncomputable section

namespace Cert.KernelIdeal.KernelValue

open Cert.KernelIdeal Cert.KernelIdeal.Gen Cert.KernelIdeal.Host Cert.Product
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The embedding: launch 0's result, still there after the host stretch -/

theorem emb_W2 (c : Dev nD) :
    W2 m ρ c (Proc.devRef .tc main_v0)
      = mm (m ((c : Thread nD τ).loc main_arg0) : S4096x128.Idx → EReal) (m ((c : Thread nD τ).loc main_arg1) : S128x64.Idx → EReal) :=
  calc W2 m ρ c (Proc.devRef .tc main_v0)
    _ = W1 m ρ c (Proc.devRef .tc main_v0) := HostStretch.W2_v0 m ρ c
    _ = (dat0 (V0 m ρ) c).arrAt 2 cfg0.N := W1_arr m ρ c 2
    _ = _ := Region0.final (V0 m ρ) c

/-! ## The adjacency matrix: written by the host stretch, left in place by the launches that read it -/

theorem adj_W3 (c : Dev nD) : W3 m ρ c (Proc.devRef .tc main_v19) = W2 m ρ c (Proc.devRef .tc main_v19) :=
  (W3_arr m ρ c 0).trans (((dat1 (V2 m ρ) c).arrAt_in 0 rfl _).trans (A_eq1 (V2 m ρ) c 0))

theorem adj_W4 (c : Dev nD) : W4 m ρ c (Proc.devRef .tc main_v19) = W3 m ρ c (Proc.devRef .tc main_v19) :=
  (W4_arr m ρ c 0).trans (((dat2 (V3 m ρ) c).arrAt_in 0 rfl _).trans (A_eq2 (V3 m ρ) c 0))

/-! ## The three products by the adjacency matrix -/

theorem feat1_W3 (c : Dev nD) :
    W3 m ρ c (Proc.devRef .tc main_v20)
      = mm (W2 m ρ c (Proc.devRef .tc main_v19) : S4096x4096.Idx → EReal) (W2 m ρ c (Proc.devRef .tc main_v0) : S4096x64.Idx → EReal) :=
  (W3_arr m ρ c 2).trans (Region1.final (V2 m ρ) c)

theorem feat2_W4 (c : Dev nD) :
    W4 m ρ c (Proc.devRef .tc main_v21)
      = mm (W3 m ρ c (Proc.devRef .tc main_v19) : S4096x4096.Idx → EReal) (W3 m ρ c (Proc.devRef .tc main_v20) : S4096x64.Idx → EReal) :=
  (W4_arr m ρ c 2).trans (Region2.final (V3 m ρ) c)

theorem feat3_W5 (c : Dev nD) :
    W5 m ρ c (Proc.devRef .tc main_v22)
      = mm (W4 m ρ c (Proc.devRef .tc main_v19) : S4096x4096.Idx → EReal) (W4 m ρ c (Proc.devRef .tc main_v21) : S4096x64.Idx → EReal) :=
  (W5_arr m ρ c 2).trans (Region3.final (V4 m ρ) c)

/-! ## The result -/

/-- The program's result: the embedding multiplied three times by the adjacency matrix. -/
theorem result_eq (c : Dev nD) :
    W5 m ρ c (Proc.devRef .tc main_v22)
      = chain (adj (F := Ideal) (m ((c : Thread nD τ).loc main_arg2)) (m ((c : Thread nD τ).loc main_arg3)))
          (m ((c : Thread nD τ).loc main_arg0)) (m ((c : Thread nD τ).loc main_arg1)) := by
  rw [feat3_W5, feat2_W4, adj_W4, adj_W3, feat1_W3, emb_W2, HostStretch.W2_v19]
  rfl

end Cert.KernelIdeal.KernelValue

end
-- ==== Proof.lean ====
/-
  The certificate of the graph-propagation kernel against its reference: three matrix products by a dense adjacency
  matrix applied to an embedding, `A · (A · (A · (x · E)))`.

  The kernel program computes `x · E` in one launch, builds `A` on the host from the edge list, and multiplies by
  `A` in three launches that each work a band of 1024 rows at a time; the reference does the same with four host
  products. On the extended reals a matrix unit's product into a zero accumulator and a host product are the same
  sum, a band of rows of a product is the product of the band, and the adjacency matrix is one and the same function
  of the two edge arguments in both programs. So both results are `chain (adj e w) x E` (Proof/KernelValue.lean for
  the kernel program over its run with the result named, Proof/KernelRun.lean; Proof/RefValue.lean for the
  reference over its generated run). No law used needs the inputs finite: the sums are the same sums.

  The three frames are the generated ones (the reference's is its run with the result dropped), and the
  idealization rewrote nothing, so `preserves` is `True`.
-/
import proofs.«174436_j43284680409688_2_alg».proof.Defs
import proofs.«174436_j43284680409688_2_alg».proof.Proof.Gen.Kernel
import proofs.«174436_j43284680409688_2_alg».proof.Proof.Gen.Kernel.Skeleton
import proofs.«174436_j43284680409688_2_alg».proof.Proof.Gen.Kernel.Launch
import proofs.«174436_j43284680409688_2_alg».proof.Proof.Gen.Kernel.Points
import proofs.«174436_j43284680409688_2_alg».proof.Proof.Gen.Kernel.Frame
import proofs.«174436_j43284680409688_2_alg».proof.Proof.Gen.KernelIdeal
import proofs.«174436_j43284680409688_2_alg».proof.Proof.Gen.KernelIdeal.Skeleton
import proofs.«174436_j43284680409688_2_alg».proof.Proof.Gen.KernelIdeal.Launch
import proofs.«174436_j43284680409688_2_alg».proof.Proof.Gen.KernelIdeal.Points
import proofs.«174436_j43284680409688_2_alg».proof.Proof.Gen.KernelIdeal.Frame
import proofs.«174436_j43284680409688_2_alg».proof.Proof.Gen.ReferenceIdeal
import proofs.«174436_j43284680409688_2_alg».proof.Proof.Gen.ReferenceIdeal.Run
import proofs.«174436_j43284680409688_2_alg».proof.Proof.Gen.Pre_finite_inputs
import proofs.«174436_j43284680409688_2_alg».proof.Proof.KernelRun
import proofs.«174436_j43284680409688_2_alg».proof.Proof.KernelValue
import proofs.«174436_j43284680409688_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at `chain (adj e w) x E` of the arguments they agree on. -/
theorem algebraic : Cert.algebraic_KernelIdeal_ReferenceIdeal := by
  intro m ρ m' ρ' _ hagree
  refine ⟨fun c => Cert.Product.chain
      (Cert.KernelIdeal.Host.adj (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
